-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S7x512x512 : Shape := ⟨3, ![7, 512, 512]⟩
abbrev S7x512 : Shape := ⟨2, ![7, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S7x512x512 : S_.BroadcastsInDim S7x512x512 (![] : Fin 0 → Fin S7x512x512.rank)
  reducesTo_S7x512x512_S_d0_1_2 : S7x512x512.ReducesTo [0, 1, 2] S_
  bcast_S_S7x512 : S_.BroadcastsInDim S7x512 (![] : Fin 0 → Fin S7x512.rank)
  reducesTo_S7x512_S_d0_1 : S7x512.ReducesTo [0, 1] S_

variable [Facts]

def fn_part1 {F : FTy → Type} [FloatOps F] (main_arg4 : FVec F S7x512 .f32) (main_arg5 : FVec F S7x512x512 .f32) (main_arg6 : FVec F S7x512 .f32) (main_v13 : IVec S_ 1) (main_v16 : IVec S7x512x512 1) : IVec S_ 1 :=
  let main_c_5 : IVec S_ 1 := constantI S_ 1 1#1
  let main_v17 : IVec S_ 1 := (fun x v => Host.reduce IntOp.andi x v reducesTo_S7x512x512_S_d0_1_2 h_S_) main_v16 main_c_5
  let main_v18 : IVec S_ 1 := andi main_v13 main_v17
  let main_v19 : FVec F S7x512 .f32 := Host.absf main_arg4
  let main_cst_6 : FVec F S_ .f32 := constant S_ .f32 0x7F800000#32
  let main_v20 : FVec F S7x512 .f32 := broadcastInDim S7x512 ![] bcast_S_S7x512 main_cst_6
  let main_v21 : IVec S7x512 1 := cmpf .olt main_v19 main_v20
  let main_c_7 : IVec S_ 1 := constantI S_ 1 1#1
  let main_v22 : IVec S_ 1 := (fun x v => Host.reduce IntOp.andi x v reducesTo_S7x512_S_d0_1 h_S_) main_v21 main_c_7
  let main_v23 : IVec S_ 1 := andi main_v18 main_v22
  let main_v24 : FVec F S7x512x512 .f32 := Host.absf main_arg5
  let main_cst_8 : FVec F S_ .f32 := constant S_ .f32 0x7F800000#32
  let main_v25 : FVec F S7x512x512 .f32 := broadcastInDim S7x512x512 ![] bcast_S_S7x512x512 main_cst_8
  let main_v26 : IVec S7x512x512 1 := cmpf .olt main_v24 main_v25
  let main_c_9 : IVec S_ 1 := constantI S_ 1 1#1
  let main_v27 : IVec S_ 1 := (fun x v => Host.reduce IntOp.andi x v reducesTo_S7x512x512_S_d0_1_2 h_S_) main_v26 main_c_9
  let main_v28 : IVec S_ 1 := andi main_v23 main_v27
  let main_v29 : FVec F S7x512 .f32 := Host.absf main_arg6
  let main_cst_10 : FVec F S_ .f32 := constant S_ .f32 0x7F800000#32
  let main_v30 : FVec F S7x512 .f32 := broadcastInDim S7x512 ![] bcast_S_S7x512 main_cst_10
  let main_v31 : IVec S7x512 1 := cmpf .olt main_v29 main_v30
  let main_c_11 : IVec S_ 1 := constantI S_ 1 1#1
  let main_v32 : IVec S_ 1 := (fun x v => Host.reduce IntOp.andi x v reducesTo_S7x512_S_d0_1 h_S_) main_v31 main_c_11
  let main_v33 : IVec S_ 1 := andi main_v28 main_v32
  main_v33

def fn {F : FTy → Type} [FloatOps F] (main_arg0 : FVec F S16384x512 .f32) (main_arg1 : FVec F S16384x512 .f32) (main_arg2 : FVec F S16384x512 .f32) (main_arg3 : FVec F S7x512x512 .f32) (main_arg4 : FVec F S7x512 .f32) (main_arg5 : FVec F S7x512x512 .f32) (main_arg6 : FVec F S7x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S7x512x512 .f32 := Host.absf main_arg3
  let main_cst_4 : FVec F S_ .f32 := constant S_ .f32 0x7F800000#32
  let main_v15 : FVec F S7x512x512 .f32 := broadcastInDim S7x512x512 ![] bcast_S_S7x512x512 main_cst_4
  let main_v16 : IVec S7x512x512 1 := cmpf .olt main_v14 main_v15
  fn_part1 (F := F) main_arg4 main_arg5 main_arg6 main_v13 main_v16
-- ==== Kernel.lean ====
abbrev S16384x512 : Shape := ⟨2, ![16384, 512]⟩
abbrev S7x512x512 : Shape := ⟨3, ![7, 512, 512]⟩
abbrev S7x512 : Shape := ⟨2, ![7, 512]⟩
abbrev S3 : Shape := ⟨1, ![3]⟩
abbrev S_ : Shape := ⟨0, ![]⟩
abbrev S3x1 : Shape := ⟨2, ![3, 1]⟩
abbrev S1 : Shape := ⟨1, ![1]⟩
abbrev S1x1 : Shape := ⟨2, ![1, 1]⟩
abbrev S3x512x512 : Shape := ⟨3, ![3, 512, 512]⟩
abbrev S3x512 : Shape := ⟨2, ![3, 512]⟩
abbrev S1024x512 : Shape := ⟨2, ![1024, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 101
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S7x512x512, .f32⟩
  | .hbm, ⟨4, _⟩ => ⟨S7x512, .f32⟩
  | .hbm, ⟨5, _⟩ => ⟨S7x512x512, .f32⟩
  | .hbm, ⟨6, _⟩ => ⟨S7x512, .f32⟩
  | .hbm, ⟨7, _⟩ => ⟨S3, .i32⟩
  | .hbm, ⟨8, _⟩ => ⟨S_, .i32⟩
  | .hbm, ⟨9, _⟩ => ⟨S3, .i32⟩
  | .hbm, ⟨10, _⟩ => ⟨S3, .i1⟩
  | .hbm, ⟨11, _⟩ => ⟨S_, .i32⟩
  | .hbm, ⟨12, _⟩ => ⟨S3, .i32⟩
  | .hbm, ⟨13, _⟩ => ⟨S3, .i32⟩
  | .hbm, ⟨14, _⟩ => ⟨S3, .i32⟩
  | .hbm, ⟨15, _⟩ => ⟨S3x1, .i32⟩
  | .hbm, ⟨16, _⟩ => ⟨S1, .i32⟩
  | .hbm, ⟨17, _⟩ => ⟨S_, .i32⟩
  | .hbm, ⟨18, _⟩ => ⟨S3x1, .i32⟩
  | .hbm, ⟨19, _⟩ => ⟨S3x1, .i1⟩
  | .hbm, ⟨20, _⟩ => ⟨S1x1, .i32⟩
  | .hbm, ⟨21, _⟩ => ⟨S3x1, .i32⟩
  | .hbm, ⟨22, _⟩ => ⟨S3x1, .i1⟩
  | .hbm, ⟨23, _⟩ => ⟨S3x1, .i1⟩
  | .hbm, ⟨24, _⟩ => ⟨S_, .i1⟩
  | .hbm, ⟨25, _⟩ => ⟨S3, .i1⟩
  | .hbm, ⟨26, _⟩ => ⟨S3x512x512, .f32⟩
  | .hbm, ⟨27, _⟩ => ⟨S3x512x512, .i1⟩
  | .hbm, ⟨28, _⟩ => ⟨S_, .f32⟩
  | .hbm, ⟨29, _⟩ => ⟨S3x512x512, .f32⟩
  | .hbm, ⟨30, _⟩ => ⟨S3x512x512, .f32⟩
  | .hbm, ⟨31, _⟩ => ⟨S_, .i32⟩
  | .hbm, ⟨32, _⟩ => ⟨S3, .i32⟩
  | .hbm, ⟨33, _⟩ => ⟨S3, .i1⟩
  | .hbm, ⟨34, _⟩ => ⟨S_, .i32⟩
  | .hbm, ⟨35, _⟩ => ⟨S3, .i32⟩
  | .hbm, ⟨36, _⟩ => ⟨S3, .i32⟩
  | .hbm, ⟨37, _⟩ => ⟨S3, .i32⟩
  | .hbm, ⟨38, _⟩ => ⟨S3x1, .i32⟩
  | .hbm, ⟨39, _⟩ => ⟨S1, .i32⟩
  | .hbm, ⟨40, _⟩ => ⟨S_, .i32⟩
  | .hbm, ⟨41, _⟩ => ⟨S3x1, .i32⟩
  | .hbm, ⟨42, _⟩ => ⟨S3x1, .i1⟩
  | .hbm, ⟨43, _⟩ => ⟨S1x1, .i32⟩
  | .hbm, ⟨44, _⟩ => ⟨S3x1, .i32⟩
  | .hbm, ⟨45, _⟩ => ⟨S3x1, .i1⟩
  | .hbm, ⟨46, _⟩ => ⟨S3x1, .i1⟩
  | .hbm, ⟨47, _⟩ => ⟨S_, .i1⟩
  | .hbm, ⟨48, _⟩ => ⟨S3, .i1⟩
  | .hbm, ⟨49, _⟩ => ⟨S3x512, .f32⟩
  | .hbm, ⟨50, _⟩ => ⟨S3x512, .i1⟩
  | .hbm, ⟨51, _⟩ => ⟨S_, .f32⟩
  | .hbm, ⟨52, _⟩ => ⟨S3x512, .f32⟩
  | .hbm, ⟨53, _⟩ => ⟨S3x512, .f32⟩
  | .hbm, ⟨54, _⟩ => ⟨S_, .i32⟩
  | .hbm, ⟨55, _⟩ => ⟨S3, .i32⟩
  | .hbm, ⟨56, _⟩ => ⟨S3, .i1⟩
  | .hbm, ⟨57, _⟩ => ⟨S_, .i32⟩
  | .hbm, ⟨58, _⟩ => ⟨S3, .i32⟩
  | .hbm, ⟨59, _⟩ => ⟨S3, .i32⟩
  | .hbm, ⟨60, _⟩ => ⟨S3, .i32⟩
  | .hbm, ⟨61, _⟩ => ⟨S3x1, .i32⟩
  | .hbm, ⟨62, _⟩ => ⟨S1, .i32⟩
  | .hbm, ⟨63, _⟩ => ⟨S_, .i32⟩
  | .hbm, ⟨64, _⟩ => ⟨S3x1, .i32⟩
  | .hbm, ⟨65, _⟩ => ⟨S3x1, .i1⟩
  | .hbm, ⟨66, _⟩ => ⟨S1x1, .i32⟩
  | .hbm, ⟨67, _⟩ => ⟨S3x1, .i32⟩
  | .hbm, ⟨68, _⟩ => ⟨S3x1, .i1⟩
  | .hbm, ⟨69, _⟩ => ⟨S3x1, .i1⟩
  | .hbm, ⟨70, _⟩ => ⟨S_, .i1⟩
  | .hbm, ⟨71, _⟩ => ⟨S3, .i1⟩
  | .hbm, ⟨72, _⟩ => ⟨S3x512x512, .f32⟩
  | .hbm, ⟨73, _⟩ => ⟨S3x512x512, .i1⟩
  | .hbm, ⟨74, _⟩ => ⟨S_, .f32⟩
  | .hbm, ⟨75, _⟩ => ⟨S3x512x512, .f32⟩
  | .hbm, ⟨76, _⟩ => ⟨S3x512x512, .f32⟩
  | .hbm, ⟨77, _⟩ => ⟨S_, .i32⟩
  | .hbm, ⟨78, _⟩ => ⟨S3, .i32⟩
  | .hbm, ⟨79, _⟩ => ⟨S3, .i1⟩
  | .hbm, ⟨80, _⟩ => ⟨S_, .i32⟩
  | .hbm, ⟨81, _⟩ => ⟨S3, .i32⟩
  | .hbm, ⟨82, _⟩ => ⟨S3, .i32⟩
  | .hbm, ⟨83, _⟩ => ⟨S3, .i32⟩
  | .hbm, ⟨84, _⟩ => ⟨S3x1, .i32⟩
  | .hbm, ⟨85, _⟩ => ⟨S1, .i32⟩
  | .hbm, ⟨86, _⟩ => ⟨S_, .i32⟩
  | .hbm, ⟨87, _⟩ => ⟨S3x1, .i32⟩
  | .hbm, ⟨88, _⟩ => ⟨S3x1, .i1⟩
  | .hbm, ⟨89, _⟩ => ⟨S1x1, .i32⟩
  | .hbm, ⟨90, _⟩ => ⟨S3x1, .i32⟩
  | .hbm, ⟨91, _⟩ => ⟨S3x1, .i1⟩
  | .hbm, ⟨92, _⟩ => ⟨S3x1, .i1⟩
  | .hbm, ⟨93, _⟩ => ⟨S_, .i1⟩
  | .hbm, ⟨94, _⟩ => ⟨S3, .i1⟩
  | .hbm, ⟨95, _⟩ => ⟨S3x512, .f32⟩
  | .hbm, ⟨96, _⟩ => ⟨S3x512, .i1⟩
  | .hbm, ⟨97, _⟩ => ⟨S_, .f32⟩
  | .hbm, ⟨98, _⟩ => ⟨S3x512, .f32⟩
  | .hbm, ⟨99, _⟩ => ⟨S3x512, .f32⟩
  | .hbm, ⟨100, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S3x512x512, .f32⟩
  | .local _ .vmem, ⟨5, _⟩ => ⟨S3x512, .f32⟩
  | .local _ .vmem, ⟨6, _⟩ => ⟨S3x512x512, .f32⟩
  | .local _ .vmem, ⟨7, _⟩ => ⟨S3x512, .f32⟩
  | .local _ .vmem, ⟨8, _⟩ => ⟨S1024x512, .f32⟩
  | .local _ .vmem, ⟨9, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v2 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v3 : Ref sig .tc := ⟨.hbm, 99, rfl⟩
abbrev main_v4 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S3 : S_.BroadcastsInDim S3 (![] : Fin 0 → Fin S3.rank)
  bcast_S3_S3x1_0 : S3.BroadcastsInDim S3x1 (![0] : Fin 1 → Fin S3x1.rank)
  bcast_S_S3x1 : S_.BroadcastsInDim S3x1 (![] : Fin 0 → Fin S3x1.rank)
  bcast_S1_S1x1_1 : S1.BroadcastsInDim S1x1 (![1] : Fin 1 → Fin S1x1.rank)
  bcast_S1x1_S3x1_0_1 : S1x1.BroadcastsInDim S3x1 (![0, 1] : Fin 2 → Fin S3x1.rank)
  reducesTo_S3x1_S3_d1 : S3x1.ReducesTo [1] S3
  h_S_ : 0 < S_.numel
  bcast_S3_S3x512x512_0 : S3.BroadcastsInDim S3x512x512 (![0] : Fin 1 → Fin S3x512x512.rank)
  bcast_S_S3x512x512 : S_.BroadcastsInDim S3x512x512 (![] : Fin 0 → Fin S3x512x512.rank)
  bcast_S3_S3x512_0 : S3.BroadcastsInDim S3x512 (![0] : Fin 1 → Fin S3x512.rank)
  bcast_S_S3x512 : S_.BroadcastsInDim S3x512 (![] : Fin 0 → Fin S3x512.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S3x512x512_S3x512x512_0_0_0 : ∀ a, (![0, 0, 0] : Fin 3 → Nat) a + S3x512x512.size a ≤ S3x512x512.size a
  h_S3x512x512 : 0 < S3x512x512.numel
  shapeCasts_S3x512x512_S3x512x512 : S3x512x512.ShapeCasts S3x512x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  slices_S3x512x512_o0_0_0_S1x512x512 : S3x512x512.Slices ![0, 0, 0] S1x512x512
  shapeCasts_S1x512x512_S512x512 : S1x512x512.ShapeCasts S512x512
  slices_S3x512_o0_0_S1x512 : S3x512.Slices ![0, 0] S1x512
  shapeCasts_S1x512_S512 : S1x512.ShapeCasts S512
  shapeCasts_S512_S1x512 : S512.ShapeCasts S1x512
  broadcasts_S1x512_S1024x512 : S1x512.Broadcasts S1024x512
  slices_S3x512x512_o1_0_0_S1x512x512 : S3x512x512.Slices ![1, 0, 0] S1x512x512
  slices_S3x512_o1_0_S1x512 : S3x512.Slices ![1, 0] S1x512
  slices_S3x512x512_o2_0_0_S1x512x512 : S3x512x512.Slices ![2, 0, 0] S1x512x512
  slices_S3x512_o2_0_S1x512 : S3x512.Slices ![2, 0] S1x512
  gather_S7x512x512_S3x1_S3x512x512_12_0_n_n_0_1_1512512_wf : GatherDims.WF S7x512x512 S3x1 S3x512x512 [1, 2] [0] [] [0] [] 1 ![1, 512, 512]
  gather_S7x512_S3x1_S3x512_1_0_n_n_0_1_1512_wf : GatherDims.WF S7x512 S3x1 S3x512 [1] [0] [] [0] [] 1 ![1, 512]
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x512x512.size a ≤ S3x512x512.size a
  hwx0_2 : ∀ i : grid0.Coords, EltTy.bits .f32 = 32 ∨ (Rect.block (s := S3x512x512) S3x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x512.size a ≤ S3x512.size a
  hwx0_3 : ∀ i : grid0.Coords, EltTy.bits .f32 = 32 ∨ (Rect.block (s := S3x512) S3x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512x512.size a ≤ S3x512x512.size a
  hwx0_4 : ∀ i : grid0.Coords, EltTy.bits .f32 = 32 ∨ (Rect.block (s := S3x512x512) S3x512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512.size a ≤ S3x512.size a
  hwx0_5 : ∀ i : grid0.Coords, EltTy.bits .f32 = 32 ∨ (Rect.block (s := S3x512) S3x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)

variable [Facts₀]

def gather_S7x512x512_S3x1_S3x512x512_12_0_n_n_0_1_1512512 : GatherDims S7x512x512 S3x1 S3x512x512 where
  offsetDims := [1, 2]
  collapsedSliceDims := [0]
  operandBatchingDims := []
  startIndicesBatchingDims := []
  startIndexMap := [0]
  indexVectorDim := 1
  sliceSizes := ![1, 512, 512]
  wf := gather_S7x512x512_S3x1_S3x512x512_12_0_n_n_0_1_1512512_wf
def gather_S7x512_S3x1_S3x512_1_0_n_n_0_1_1512 : GatherDims S7x512 S3x1 S3x512 where
  offsetDims := [1]
  collapsedSliceDims := [0]
  operandBatchingDims := []
  startIndicesBatchingDims := []
  startIndexMap := [0]
  indexVectorDim := 1
  sliceSizes := ![1, 512]
  wf := gather_S7x512_S3x1_S3x512_1_0_n_n_0_1_1512_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S3x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S7x512x512 : Shape := ⟨3, ![7, 512, 512]⟩
abbrev S7x512 : Shape := ⟨2, ![7, 512]⟩
abbrev S7x512x16384 : Shape := ⟨3, ![7, 512, 16384]⟩
abbrev S7x16384x512 : Shape := ⟨3, ![7, 16384, 512]⟩
abbrev S7x1x512 : Shape := ⟨3, ![7, 1, 512]⟩
abbrev S6x16384x512 : Shape := ⟨3, ![6, 16384, 512]⟩
abbrev S1x16384x512 : Shape := ⟨3, ![1, 16384, 512]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S7x512x512, .f32⟩
  | .hbm, ⟨4, _⟩ => ⟨S7x512, .f32⟩
  | .hbm, ⟨5, _⟩ => ⟨S7x512x512, .f32⟩
  | .hbm, ⟨6, _⟩ => ⟨S7x512, .f32⟩
  | .hbm, ⟨7, _⟩ => ⟨S7x512x16384, .f32⟩
  | .hbm, ⟨8, _⟩ => ⟨S7x16384x512, .f32⟩
  | .hbm, ⟨9, _⟩ => ⟨S7x1x512, .f32⟩
  | .hbm, ⟨10, _⟩ => ⟨S7x16384x512, .f32⟩
  | .hbm, ⟨11, _⟩ => ⟨S7x16384x512, .f32⟩
  | .hbm, ⟨12, _⟩ => ⟨S6x16384x512, .f32⟩
  | .hbm, ⟨13, _⟩ => ⟨S6x16384x512, .f32⟩
  | .hbm, ⟨14, _⟩ => ⟨S1x16384x512, .f32⟩
  | .hbm, ⟨15, _⟩ => ⟨S_, .f32⟩
  | .hbm, ⟨16, _⟩ => ⟨S1x16384x512, .f32⟩
  | .hbm, ⟨17, _⟩ => ⟨S1x16384x512, .f32⟩
  | .hbm, ⟨18, _⟩ => ⟨S1x16384x512, .f32⟩
  | .hbm, ⟨19, _⟩ => ⟨S1x16384x512, .f32⟩
  | .hbm, ⟨20, _⟩ => ⟨S1x16384x512, .i1⟩
  | .hbm, ⟨21, _⟩ => ⟨S1x16384x512, .f32⟩
  | .hbm, ⟨22, _⟩ => ⟨S1x16384x512, .f32⟩
  | .hbm, ⟨23, _⟩ => ⟨S1x16384x512, .f32⟩
  | .hbm, ⟨24, _⟩ => ⟨S1x16384x512, .f32⟩
  | .hbm, ⟨25, _⟩ => ⟨S1x16384x512, .f32⟩
  | .hbm, ⟨26, _⟩ => ⟨S1x16384x512, .f32⟩
  | .hbm, ⟨27, _⟩ => ⟨S1x16384x512, .f32⟩
  | .hbm, ⟨28, _⟩ => ⟨S1x16384x512, .f32⟩
  | .hbm, ⟨29, _⟩ => ⟨S7x16384x512, .f32⟩
  | .hbm, ⟨30, _⟩ => ⟨S7x16384x512, .f32⟩
  | .hbm, ⟨31, _⟩ => ⟨S7x1x512, .f32⟩
  | .hbm, ⟨32, _⟩ => ⟨S7x16384x512, .f32⟩
  | .hbm, ⟨33, _⟩ => ⟨S7x16384x512, .f32⟩
  | .hbm, ⟨34, _⟩ => ⟨S6x16384x512, .f32⟩
  | .hbm, ⟨35, _⟩ => ⟨S6x16384x512, .f32⟩
  | .hbm, ⟨36, _⟩ => ⟨S6x16384x512, .f32⟩
  | .hbm, ⟨37, _⟩ => ⟨S6x16384x512, .f32⟩
  | .hbm, ⟨38, _⟩ => ⟨S_, .f32⟩
  | .hbm, ⟨39, _⟩ => ⟨S6x16384x512, .f32⟩
  | .hbm, ⟨40, _⟩ => ⟨S6x16384x512, .f32⟩
  | .hbm, ⟨41, _⟩ => ⟨S_, .f32⟩
  | .hbm, ⟨42, _⟩ => ⟨S6x16384x512, .f32⟩
  | .hbm, ⟨43, _⟩ => ⟨S6x16384x512, .f32⟩
  | .hbm, ⟨44, _⟩ => ⟨S1x16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .i1⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S1x16384x512, .f32⟩
  | .hbm, ⟨61, _⟩ => ⟨S16384x512, .f32⟩
  | .hbm, ⟨62, _⟩ => ⟨S1x16384x512, .f32⟩
  | .hbm, ⟨63, _⟩ => ⟨S16384x512, .f32⟩
  | .hbm, ⟨64, _⟩ => ⟨S1x16384x512, .f32⟩
  | .hbm, ⟨65, _⟩ => ⟨S16384x512, .f32⟩
  | .hbm, ⟨66, _⟩ => ⟨S1x16384x512, .f32⟩
  | .hbm, ⟨67, _⟩ => ⟨S16384x512, .f32⟩
  | .hbm, ⟨68, _⟩ => ⟨S1x16384x512, .f32⟩
  | .hbm, ⟨69, _⟩ => ⟨S16384x512, .f32⟩
  | .hbm, ⟨70, _⟩ => ⟨S1x16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_cst_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩

abbrev nD : Nat := 1
abbrev τ : Topo := Topo.v7x

variable {F : FTy → Type} [FloatOps F]

class Facts₀ : Prop where
  transposes_S7x512x16384_S7x16384x512_0_2_1 : S7x512x16384.Transposes [0, 2, 1] S7x16384x512
  bcast_S7x512_S7x1x512_0_2 : S7x512.BroadcastsInDim S7x1x512 (![0, 2] : Fin 2 → Fin S7x1x512.rank)
  bcast_S7x1x512_S7x16384x512_0_1_2 : S7x1x512.BroadcastsInDim S7x16384x512 (![0, 1, 2] : Fin 3 → Fin S7x16384x512.rank)
  slices_S7x16384x512_S6x16384x512_0_0_0 : S7x16384x512.Slices ![0, 0, 0] S6x16384x512
  slices_S7x16384x512_S1x16384x512_6_0_0 : S7x16384x512.Slices ![6, 0, 0] S1x16384x512
  bcast_S_S1x16384x512 : S_.BroadcastsInDim S1x16384x512 (![] : Fin 0 → Fin S1x16384x512.rank)
  concatenates_S6x16384x512_S1x16384x512_S7x16384x512_d0 : Shape.Concatenates [S6x16384x512, S1x16384x512] S7x16384x512 0
  bcast_S_S6x16384x512 : S_.BroadcastsInDim S6x16384x512 (![] : Fin 0 → Fin S6x16384x512.rank)
  shapeCasts_S1x16384x512_S16384x512 : S1x16384x512.ShapeCasts S16384x512
  bcast_S_S16384x512 : S_.BroadcastsInDim S16384x512 (![] : Fin 0 → Fin S16384x512.rank)
  slices_S6x16384x512_S1x16384x512_0_0_0 : S6x16384x512.Slices ![0, 0, 0] S1x16384x512
  slices_S6x16384x512_S1x16384x512_1_0_0 : S6x16384x512.Slices ![1, 0, 0] S1x16384x512
  slices_S6x16384x512_S1x16384x512_2_0_0 : S6x16384x512.Slices ![2, 0, 0] S1x16384x512
  slices_S6x16384x512_S1x16384x512_3_0_0 : S6x16384x512.Slices ![3, 0, 0] S1x16384x512
  slices_S6x16384x512_S1x16384x512_4_0_0 : S6x16384x512.Slices ![4, 0, 0] S1x16384x512
  slices_S6x16384x512_S1x16384x512_5_0_0 : S6x16384x512.Slices ![5, 0, 0] S1x16384x512
  dot_S7x512x512_S16384x512_S7x512x16384_2_1_01_0_n_n_wf : DotDims.WF S7x512x512 S16384x512 S7x512x16384 [2] [1] [0, 1] [0] [] []
  dot_S7x16384x512_S7x512x512_S7x16384x512_2_2_1_1_0_0_wf : DotDims.WF S7x16384x512 S7x512x512 S7x16384x512 [2] [2] [1] [1] [0] [0]

variable [Facts₀]

def dot_S7x512x512_S16384x512_S7x512x16384_2_1_01_0_n_n : DotDims S7x512x512 S16384x512 S7x512x16384 where
  lhsContracting := [2]
  rhsContracting := [1]
  lhsNonContracting := [0, 1]
  rhsNonContracting := [0]
  lhsBatch := []
  rhsBatch := []
  wf := dot_S7x512x512_S16384x512_S7x512x16384_2_1_01_0_n_n_wf
def dot_S7x16384x512_S7x512x512_S7x16384x512_2_2_1_1_0_0 : DotDims S7x16384x512 S7x512x512 S7x16384x512 where
  lhsContracting := [2]
  rhsContracting := [2]
  lhsNonContracting := [1]
  rhsNonContracting := [1]
  lhsBatch := [0]
  rhsBatch := [0]
  wf := dot_S7x16384x512_S7x512x512_S7x16384x512_2_2_1_1_0_0_wf

class Facts : Prop extends Facts₀ where

variable [Facts]
-- ==== Proof.LibScatter.lean ====
/-
  The host's scatter and gather along the rows of an array, read at an index.

  `Host.scatter d f x idx upd` is a left fold over the update indices in row-major order. When the
  body `f` is the addition of a commutative monoid the fold's value at an operand index is the
  operand's element plus the sum of the updates whose result index is that element
  (`scatter_add_apply`), the same statement as the definition of the exact float scatter-add
  (`scatterAdd_apply`). For the two row forms (scalar updates `[N]` into `[R]`, row updates
  `[N, C]` into `[R, C]`, one scatter index per update, read off an `[N, 1]` array) the set of
  updates landing on row `r` is the set of `p` whose index word, read signed, is `r`. The row
  gather `[R, C]` at `[N, 1]` start indices reads row `min (index) (R - 1)`.
-/
import Idealize.ShloMosaic.PureOps.Ideal.Laws
import Idealize.ShloMosaic.Lib.ValueIdx

noncomputable section

namespace Cert.Proof.LibScatter

open Idealize.ShloMosaic Idealize.ShloMosaic.ValueIdx
open scoped BigOperators

/-! ## The fold of an additive body -/

section Fold

variable {α : Type} [AddCommMonoid α] {s si u : Shape} {w : Nat}

/-- A fold whose step adds `c n` pointwise: the start value plus the list's contributions. -/
theorem fold_apply {ι : Type} (g : (s.Idx → α) → ι → (s.Idx → α)) (c : ι → s.Idx → α)
    (hg : ∀ r n i, g r n i = r i + c n i) (i : s.Idx) (L : List ι) (r : s.Idx → α) :
    (L.foldl g r) i = r i + (L.map fun n => c n i).sum := by
  induction L generalizing r with
  | nil => simp
  | cons n L ih => rw [List.foldl_cons, ih, hg, List.map_cons, List.sum_cons, add_assoc]

/-- THE SCATTER OF AN ADDITIVE BODY AT AN INDEX: the operand's element plus the sum of the updates
    whose result index is that element. -/
theorem scatter_add_apply (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  unfold Host.scatter
  refine (fold_apply _ (fun n i => if d.resultIdx? (u.rowMajor.symm n) idx = some i then upd (u.rowMajor.symm n) else 0)
    ?_ i _ x).trans ?_
  · intro r n i'
    generalize d.resultIdx? (u.rowMajor.symm n) idx = o
    cases o with
    | none => simp
    | some i₀ =>
      by_cases hi : i' = i₀
      · subst hi; simp [hf]
      · have hne : ¬ (some i₀ = some i') := fun e => hi (Option.some.inj e).symm
        simp [hi, hne]
  · rw [← Fin.sum_univ_def]
    congr 1
    exact Equiv.sum_comp u.rowMajor.symm (fun j => if d.resultIdx? j idx = some i then upd j else 0)

/-- The exact float scatter-add at an index, in the same form. -/
theorem scatterAdd_apply {φ : FTy} (d : ScatterDims s si u) (x : FVec Ideal s φ) (idx : IVec si w)
    (upd : FVec Ideal u φ) (i : s.Idx) :
    Host.scatterAdd d x idx upd i = x i + ∑ j : u.Idx, if d.resultIdx? j idx = some i then upd j else 0 := by
  show Ideal.hostScatterAdd d x idx upd i = _
  unfold Ideal.hostScatterAdd
  rw [Finset.sum_filter]

/-- An update lands on `i` exactly when start plus window coordinate is `i`'s coordinate on every axis. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hall
      have hi := Option.some.inj h
      intro a
      have := congrFun hi a
      have h2 := hall a
      rw [← this]
      simp only
      omega
    · exact absurd h (by simp)
  · intro h
    have hall : ∀ a, 0 ≤ d.start j idx a + (d.window j a : ℤ) ∧ d.start j idx a + (d.window j a : ℤ) < s.size a := by
      intro a; rw [h a]; exact ⟨by omega, by exact_mod_cast (i a).isLt⟩
    rw [dif_pos hall]
    congr 1
    funext a
    refine Fin.ext ?_
    simp only
    rw [h a]; omega

end Fold

/-! ## The row forms -/

section Rows

variable {α : Type} {R C N w : Nat}

/-- A rank-1 index set is its coordinate's range. -/
def idxEquiv1 {n : Nat} : (⟨1, ![n]⟩ : Shape).Idx ≃ Fin n where
  toFun i := i 0
  invFun p := ix1 p
  left_inv i := (eq_ix1 i).symm
  right_inv _ := rfl

theorem sum_idx1 {M : Type} [AddCommMonoid M] {n : Nat} (g : (⟨1, ![n]⟩ : Shape).Idx → M) :
    ∑ i, g i = ∑ p : Fin n, g (ix1 p) :=
  (Equiv.sum_comp (idxEquiv1 (n := n)).symm g).symm

/-- Scalar updates `[N]` into `[R]`, one scatter index per update read off an `[N, 1]` array. -/
abbrev rows1 (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- Row updates `[N, C]` into `[R, C]`, one scatter index per row read off an `[N, 1]` array. -/
abbrev rows2 (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

theorem rows1_start (wf : ScatterDims.WF ⟨1, ![R]⟩ ⟨2, ![N, 1]⟩ ⟨1, ![N]⟩ [] [0] [0] 1)
    (p : Fin N) (idx : IVec ⟨2, ![N, 1]⟩ w) :
    (rows1 R N wf).start (ix1 p) idx 0 = (idx (ix2 p 0)).toInt := by
  unfold ScatterDims.start
  rw [dif_pos (show (0 : Fin 1) ∈ (rows1 R N wf).scatterDimsToOperandDims from List.mem_singleton.mpr rfl)]
  congr 2
  funext b; refine Fin.ext ?_
  match b with
  | ⟨0, _⟩ => rfl
  | ⟨1, _⟩ => rfl

theorem rows1_window (wf : ScatterDims.WF ⟨1, ![R]⟩ ⟨2, ![N, 1]⟩ ⟨1, ![N]⟩ [] [0] [0] 1) (p : Fin N) :
    (rows1 R N wf).window (ix1 p) 0 = 0 := by
  unfold ScatterDims.window
  rw [dif_neg]
  simp [ScatterDims.sKept, Shape.kept]

/-- The update `p` lands on `r` exactly when its index word, read signed, is `r`. -/
theorem rows1_lands (wf : ScatterDims.WF ⟨1, ![R]⟩ ⟨2, ![N, 1]⟩ ⟨1, ![N]⟩ [] [0] [0] 1)
    (p : Fin N) (idx : IVec ⟨2, ![N, 1]⟩ w) (r : Fin R) :
    (rows1 R N wf).resultIdx? (ix1 p) idx = some (ix1 r) ↔ (idx (ix2 p 0)).toInt = (r.val : ℤ) := by
  rw [resultIdx?_eq_some_iff]
  constructor
  · intro h
    have h0 := h 0
    rw [rows1_start, rows1_window, Nat.cast_zero, add_zero] at h0
    exact h0
  · intro h a
    obtain rfl : a = 0 := Subsingleton.elim _ _
    rw [rows1_start, rows1_window, Nat.cast_zero, add_zero]
    exact h

/-- The scatter of an additive body over scalar updates, at row `r`. -/
theorem rows1_scatter_add_apply [AddCommMonoid α]
    (wf : ScatterDims.WF ⟨1, ![R]⟩ ⟨2, ![N, 1]⟩ ⟨1, ![N]⟩ [] [0] [0] 1) (f : α → α → α) (hf : ∀ a b, f a b = a + b)
    (x : (⟨1, ![R]⟩ : Shape).Idx → α) (idx : IVec ⟨2, ![N, 1]⟩ w) (upd : (⟨1, ![N]⟩ : Shape).Idx → α) (r : Fin R) :
    Host.scatter (rows1 R N wf) f x idx upd (ix1 r)
      = x (ix1 r) + ∑ p : Fin N, if (idx (ix2 p 0)).toInt = (r.val : ℤ) then upd (ix1 p) else 0 := by
  rw [scatter_add_apply _ f hf, sum_idx1]
  congr 1
  exact Finset.sum_congr rfl fun p _ => if_congr (rows1_lands wf p idx r) rfl rfl

/-- The exact float scatter-add over scalar updates, at row `r`. -/
theorem rows1_scatterAdd_apply {φ : FTy}
    (wf : ScatterDims.WF ⟨1, ![R]⟩ ⟨2, ![N, 1]⟩ ⟨1, ![N]⟩ [] [0] [0] 1)
    (x : FVec Ideal ⟨1, ![R]⟩ φ) (idx : IVec ⟨2, ![N, 1]⟩ w) (upd : FVec Ideal ⟨1, ![N]⟩ φ) (r : Fin R) :
    Host.scatterAdd (rows1 R N wf) x idx upd (ix1 r)
      = x (ix1 r) + ∑ p : Fin N, if (idx (ix2 p 0)).toInt = (r.val : ℤ) then upd (ix1 p) else 0 := by
  rw [scatterAdd_apply, sum_idx1]
  congr 1
  exact Finset.sum_congr rfl fun p _ => if_congr (rows1_lands wf p idx r) rfl rfl

theorem rows2_start0 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 0 = (idx (ix2 p 0)).toInt := by
  unfold ScatterDims.start
  rw [dif_pos (show (0 : Fin 2) ∈ (rows2 R C N wf).scatterDimsToOperandDims from List.mem_singleton.mpr rfl)]
  congr 2
  funext b'; refine Fin.ext ?_
  match b' with
  | ⟨0, _⟩ => rfl
  | ⟨1, _⟩ => rfl

theorem rows2_start1 (wf : ScatterDims.WF ⟨2, ![R, C]⟩ ⟨2, ![N, 1]⟩ ⟨2, ![N, C]⟩ [1] [0] [0] 1)
    (p : Fin N) (b : Fin C) (idx : IVec ⟨2, ![N, 1]⟩ w) :
    (rows2 R C N wf).start (ix2 p b) idx 1 = 0 := by
  unfold ScatterDims.start
  rw [dif_neg]
  simp

theorem rows2_window0 (wf : ScatterDims.WF ⟨2, ![R, C]⟩ ⟨2, ![N, 1]⟩ ⟨2, ![N, C]⟩ [1] [0] [0] 1)
    (p : Fin N) (b : Fin C) : (rows2 R C N wf).window (ix2 p b) 0 = 0 := by
  unfold ScatterDims.window
  rw [dif_neg]
  simp [ScatterDims.sKept, Shape.kept]

theorem rows2_window1 (wf : ScatterDims.WF ⟨2, ![R, C]⟩ ⟨2, ![N, 1]⟩ ⟨2, ![N, C]⟩ [1] [0] [0] 1)
    (p : Fin N) (b : Fin C) : (rows2 R C N wf).window (ix2 p b) 1 = b.val := by
  unfold ScatterDims.window
  rw [dif_pos (by simp [ScatterDims.sKept, Shape.kept])]
  rfl

/-- The update `(p, b)` lands on `(r, c)` exactly when `p`'s index word, read signed, is `r` and `b = c`. -/
theorem rows2_lands (wf : ScatterDims.WF ⟨2, ![R, C]⟩ ⟨2, ![N, 1]⟩ ⟨2, ![N, C]⟩ [1] [0] [0] 1)
    (p : Fin N) (b : Fin C) (idx : IVec ⟨2, ![N, 1]⟩ w) (r : Fin R) (c : Fin C) :
    (rows2 R C N wf).resultIdx? (ix2 p b) idx = some (ix2 r c) ↔ (idx (ix2 p 0)).toInt = (r.val : ℤ) ∧ b = c := by
  rw [resultIdx?_eq_some_iff]
  constructor
  · intro h
    have h0 := h 0
    have h1 := h 1
    rw [rows2_start0, rows2_window0, Nat.cast_zero, add_zero] at h0
    rw [rows2_start1, rows2_window1, zero_add] at h1
    refine ⟨h0, Fin.ext ?_⟩
    have h1' : ((b.val : ℕ) : ℤ) = ((c.val : ℕ) : ℤ) := h1
    exact_mod_cast h1'
  · rintro ⟨h, rfl⟩ a
    match a with
    | ⟨0, _⟩ =>
      show (rows2 R C N wf).start (ix2 p b) idx 0 + ((rows2 R C N wf).window (ix2 p b) 0 : ℤ) = _
      rw [rows2_start0, rows2_window0, Nat.cast_zero, add_zero]; exact h
    | ⟨1, _⟩ =>
      show (rows2 R C N wf).start (ix2 p b) idx 1 + ((rows2 R C N wf).window (ix2 p b) 1 : ℤ) = _
      rw [rows2_start1, rows2_window1, zero_add]

/-- The exact float scatter-add over row updates, at `(r, c)`. -/
theorem rows2_scatterAdd_apply {φ : FTy}
    (wf : ScatterDims.WF ⟨2, ![R, C]⟩ ⟨2, ![N, 1]⟩ ⟨2, ![N, C]⟩ [1] [0] [0] 1)
    (x : FVec Ideal ⟨2, ![R, C]⟩ φ) (idx : IVec ⟨2, ![N, 1]⟩ w) (upd : FVec Ideal ⟨2, ![N, C]⟩ φ) (r : Fin R) (c : Fin C) :
    Host.scatterAdd (rows2 R C N wf) x idx upd (ix2 r c)
      = x (ix2 r c) + ∑ p : Fin N, if (idx (ix2 p 0)).toInt = (r.val : ℤ) then upd (ix2 p c) else 0 := by
  rw [scatterAdd_apply, sum_idx2]
  congr 1
  refine Finset.sum_congr rfl fun p _ => ?_
  have hb : ∀ b : Fin C, (if (rows2 R C N wf).resultIdx? (ix2 p b) idx = some (ix2 r c) then upd (ix2 p b) else 0)
      = if b = c then (if (idx (ix2 p 0)).toInt = (r.val : ℤ) then upd (ix2 p c) else 0) else 0 := by
    intro b
    rw [if_congr (rows2_lands wf p b idx r c) rfl rfl]
    by_cases hbc : b = c
    · subst hbc; simp
    · simp [hbc]
  simp only [hb, Finset.sum_ite_eq', Finset.mem_univ, if_true]

/-- Rows of an `[R, C]` array gathered at `[N, 1]` start indices. -/
abbrev rowsG (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, c)`: row `min (index word, read signed) (R - 1)`, column `c`. -/
theorem rowsG_apply (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (p : Fin N) (c : Fin C) (k : Fin R)
    (hk : k.val = min (idx (ix2 p 0)).toInt.toNat (R - 1)) :
    Host.gather (rowsG R C N wf) x idx (ix2 p c) = x (ix2 k c) := by
  unfold Host.gather
  congr 1
  funext a
  refine Fin.ext ?_
  match a with
  | ⟨0, _⟩ =>
    show (rowsG R C N wf).start (ix2 p c) idx 0 + (rowsG R C N wf).batchCoord (ix2 p c) 0 + (rowsG R C N wf).offCoord (ix2 p c) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsG R C N wf).startIndexMap from List.mem_singleton.mpr rfl), hk]
    have hsi : (rowsG R C N wf).siIdx (ix2 p c) ⟨List.idxOf (0 : Fin 2) (rowsG R C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowsG R C N wf).start (ix2 p c) idx 1 + (rowsG R C N wf).batchCoord (ix2 p c) 1 + (rowsG R C N wf).offCoord (ix2 p c) 1 = c.val
    rw [GatherDims.batchCoord_eq_zero _ _ _ List.not_mem_nil]
    have hs : (rowsG R C N wf).start (ix2 p c) idx 1 = 0 := by
      unfold GatherDims.start
      rw [dif_neg]
      simp
    have ho : (rowsG R C N wf).offCoord (ix2 p c) 1 = c.val := by
      unfold GatherDims.offCoord
      rw [dif_pos (by simp [GatherDims.sKept, Shape.kept])]
      rfl
    rw [hs, ho]; omega

end Rows

end Cert.Proof.LibScatter

end
-- ==== Proof.LibTakePlanes.lean ====
/-
  Whole planes of a rank-3 array gathered along its leading axis, read at an index; and the
  conjunction of a family of one-bit words that are all one.

  `stablehlo.gather` of an `[R, A, C]` operand at `[N, 1]` start indices, with the leading axis
  collapsed and the two others offset axes of full extent, reads at `(p, a, c)` the operand at
  `(k, a, c)`, where `k` is start index `p` read signed and clamped to `[0, R - 1]`: the start of
  the slice on the leading axis is the clamped index, on the two others it is `0`, there is no
  batching axis, and the offset coordinates on the two kept axes are `a` and `c`.

  A left fold by `and` from `1` over words that are all `1` is `1`; so a `stablehlo.reduce` by `and`
  from the constant `1` of an array of ones is `1` at every index of its result.
-/
import Idealize.ShloMosaic.PureOps.Ideal.Laws
import Idealize.ShloMosaic.PureOps.Reduce
import Idealize.ShloMosaic.Lib.ValueIdx

noncomputable section

namespace Cert.Proof.LibTakePlanes

open Idealize.ShloMosaic Idealize.ShloMosaic.ValueIdx

/-! ## Planes gathered along the leading axis -/

section Planes

variable {α : Type} {R A C N w : Nat}

/-- Planes of an `[R, A, C]` array gathered at `[N, 1]` start indices. -/
abbrev planesG (R A C N : Nat)
    (wf : GatherDims.WF ⟨3, ![R, A, C]⟩ ⟨2, ![N, 1]⟩ ⟨3, ![N, A, C]⟩ [1, 2] [0] [] [0] [] 1 ![1, A, C]) :
    GatherDims ⟨3, ![R, A, C]⟩ ⟨2, ![N, 1]⟩ ⟨3, ![N, A, C]⟩ where
  offsetDims := [1, 2]
  collapsedSliceDims := [0]
  operandBatchingDims := []
  startIndicesBatchingDims := []
  startIndexMap := [0]
  indexVectorDim := 1
  sliceSizes := ![1, A, C]
  wf := wf

/-- THE PLANE GATHER READ AT `(p, a, c)`: plane `min (index word, read signed) (R - 1)`, at `(a, c)`. -/
theorem planesG_apply
    (wf : GatherDims.WF ⟨3, ![R, A, C]⟩ ⟨2, ![N, 1]⟩ ⟨3, ![N, A, C]⟩ [1, 2] [0] [] [0] [] 1 ![1, A, C])
    (x : (⟨3, ![R, A, C]⟩ : Shape).Idx → α) (idx : IVec ⟨2, ![N, 1]⟩ w) (p : Fin N) (a : Fin A) (c : Fin C) (k : Fin R)
    (hk : k.val = min (idx (ix2 p 0)).toInt.toNat (R - 1)) :
    Host.gather (planesG R A C N wf) x idx (ix3 p a c) = x (ix3 k a c) := by
  unfold Host.gather
  congr 1
  funext b
  refine Fin.ext ?_
  match b with
  | ⟨0, _⟩ =>
    show (planesG R A C N wf).start (ix3 p a c) idx 0 + (planesG R A C N wf).batchCoord (ix3 p a c) 0
      + (planesG R A C N wf).offCoord (ix3 p a c) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (planesG R A C N wf).startIndexMap from List.mem_singleton.mpr rfl), hk]
    have hsi : (planesG R A C N wf).siIdx (ix3 p a c) ⟨List.idxOf (0 : Fin 3) (planesG R A C N wf).startIndexMap,
        List.idxOf_lt_length_iff.2 (List.mem_singleton.mpr rfl)⟩ = ix2 p 0 := by
      funext e; refine Fin.ext ?_
      match e with
      | ⟨0, _⟩ => rfl
      | ⟨1, _⟩ => rfl
    rw [hsi]
    rfl
  | ⟨1, _⟩ =>
    show (planesG R A C N wf).start (ix3 p a c) idx 1 + (planesG R A C N wf).batchCoord (ix3 p a c) 1
      + (planesG R A C N wf).offCoord (ix3 p a c) 1 = a.val
    rw [GatherDims.batchCoord_eq_zero _ _ _ List.not_mem_nil]
    have hs : (planesG R A C N wf).start (ix3 p a c) idx 1 = 0 := by
      unfold GatherDims.start
      rw [dif_neg]
      simp
    have ho : (planesG R A C N wf).offCoord (ix3 p a c) 1 = a.val := by
      unfold GatherDims.offCoord
      rw [dif_pos (by simp [GatherDims.sKept, Shape.kept])]
      rfl
    rw [hs, ho]; omega
  | ⟨2, _⟩ =>
    show (planesG R A C N wf).start (ix3 p a c) idx 2 + (planesG R A C N wf).batchCoord (ix3 p a c) 2
      + (planesG R A C N wf).offCoord (ix3 p a c) 2 = c.val
    rw [GatherDims.batchCoord_eq_zero _ _ _ List.not_mem_nil]
    have hs : (planesG R A C N wf).start (ix3 p a c) idx 2 = 0 := by
      unfold GatherDims.start
      rw [dif_neg]
      simp
    have ho : (planesG R A C N wf).offCoord (ix3 p a c) 2 = c.val := by
      unfold GatherDims.offCoord
      rw [dif_pos (by simp [GatherDims.sKept, Shape.kept])]
      rfl
    rw [hs, ho]; omega

end Planes

/-! ## A conjunction of ones -/

section AllOnes

/-- A left fold by `and` from `1` over words that are all `1` is `1`. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

variable {s t u : Shape} {axes : List (Fin s.rank)}

/-- A `stablehlo.reduce` by `and` from an initial value `1` of an array whose words are all `1` is `1`. -/
theorem reduce_andi_ones (x : s.Idx → BitVec 1) (init : u.Idx → BitVec 1) (h : s.ReducesTo axes t) (hu : 0 < u.numel)
    (hinit : ∀ i, init i = 1#1) (hx : ∀ i, x i = 1#1) (j : t.Idx) : Host.reduce IntOp.andi x init h hu j = 1#1 := by
  rw [Host.reduce_eq_foldl, hinit]
  exact foldl_andi_ones x _ fun n _ => hx n

end AllOnes

end Cert.Proof.LibTakePlanes

end
-- ==== Proof.SelectedNets.lean ====
/-
  What the kernel's host operations leave in the four arrays the launch stages: the weights and
  biases of networks 1, 3 and 5, in this order.

  Before the launch the host selects, from each of the four stacked parameter arrays, the entries
  of the leading axis at the literal indices `[1, 3, 5]`. Each selection is spelled as an indexed
  read with a guard: an index below zero is first wrapped by the axis length 7; the read clamps
  its start into the array; and the result is kept only where the wrapped index lies in `[0, 6]`,
  a fill value standing elsewhere. The three literal indices are non-negative and at most 6, so
  nothing wraps, nothing is clamped, the guard is one at every position, and the selection at
  position `p` is entry `selRow p` of the array, where `selRow = (1, 3, 5)`.
-/
import proofs.«104136_j77309411328201_1_alg».proof.Proof.Gen.KernelIdeal.Frame
import proofs.«104136_j77309411328201_1_alg».proof.Proof.LibScatter
import proofs.«104136_j77309411328201_1_alg».proof.Proof.LibTakePlanes
import Idealize.ShloMosaic.Lib.StableHlo.Run
import Idealize.ShloMosaic.Lib.Pipeline.Value
import Idealize.ShloMosaic.Lib.ValueIdx

noncomputable section

namespace Cert.KernelIdeal.Selected

open Cert.KernelIdeal Cert.KernelIdeal.Gen Idealize.ShloMosaic Idealize.ShloMosaic.TcCoe Idealize.SL.Sem
open Idealize.ShloMosaic.StableHlo Idealize.ShloMosaic.ValueIdx
open Cert.Proof.LibScatter Cert.Proof.LibTakePlanes

variable {F : FTy → Type} [FloatOps F]

/-! ## The indices and the guard -/

/-- The networks the returned cell state depends on. -/
def selRow : Fin 3 → Fin 7
  | 0 => 1
  | 1 => 3
  | 2 => 5

/-- The literal index vector `[1, 3, 5]`. -/
def sel : IVec S3 32 := fun i => lit0 (S3.rowMajor i)

/-- The indices after the wrap of a negative one by the axis length, as a column of start indices. -/
def selCol : IVec S3x1 32 :=
  broadcastInDim S3x1 ![0] bcast_S3_S3x1_0
    (select (cmpi .slt sel (broadcastInDim S3 ![] bcast_S_S3 (constantI S_ 32 0#32)))
      (addi sel (broadcastInDim S3 ![] bcast_S_S3 (constantI S_ 32 7#32))) sel)

/-- The guard: position by position, the wrapped index lies in `[0, 6]`. -/
def selOk : IVec S3 1 :=
  Host.reduce IntOp.andi
    (andi (cmpi .sge selCol (broadcastInDim S3x1 ![] bcast_S_S3x1 (constantI S_ 32 0#32)))
      (cmpi .sle selCol (broadcastInDim S3x1 ![0, 1] bcast_S1x1_S3x1_0_1 (broadcastInDim S1x1 ![1] bcast_S1_S1x1_1 (constantI S1 32 6#32)))))
    (constantI S_ 1 1#1) reducesTo_S3x1_S3_d1 h_S_

/-- The guarded selection of three planes of a stacked weight array. -/
def takePlanes (x : S7x512x512.Idx → Elt F .f32) : S3x512x512.Idx → Elt F .f32 :=
  select (broadcastInDim S3x512x512 ![0] bcast_S3_S3x512x512_0 selOk)
    (Host.gather gather_S7x512x512_S3x1_S3x512x512_12_0_n_n_0_1_1512512 x selCol)
    (broadcastInDim S3x512x512 ![] bcast_S_S3x512x512 (constant S_ .f32 0x7FC00000#32))

/-- The guarded selection of three rows of a stacked bias array. -/
def takeRows (x : S7x512.Idx → Elt F .f32) : S3x512.Idx → Elt F .f32 :=
  select (broadcastInDim S3x512 ![0] bcast_S3_S3x512_0 selOk)
    (Host.gather gather_S7x512_S3x1_S3x512_1_0_n_n_0_1_1512 x selCol)
    (broadcastInDim S3x512 ![] bcast_S_S3x512 (constant S_ .f32 0x7FC00000#32))

/-- Position `p` of the literal vector. -/
theorem sel_apply (p : Fin 3) : sel (ix1 p) = lit0 p :=
  congrArg lit0 (Fin.ext (Shape.rowMajor_val_one (ix1 p)))

/-- No literal index is negative: start index `p` is the literal. -/
theorem selCol_apply (p : Fin 3) : selCol (ix2 p 0) = lit0 p := by
  unfold selCol
  refine (broadcastInDim_apply _ bcast_S3_S3x1_0 _ (ix2 p 0) (ix1 p) (fun a => match a with
    | ⟨0, _⟩ => by show p.val = if (3 : Nat) = 1 then 0 else p.val; rw [if_neg (by decide)])).trans ?_
  show Scalar.select (IntOp.cmpi .slt (sel (ix1 p)) 0#32) (IntOp.addi (sel (ix1 p)) 7#32) (sel (ix1 p)) = lit0 p
  rw [sel_apply]
  fin_cases p <;> decide

/-- Every literal index lies in `[0, 6]`: the guard is one everywhere. -/
theorem selOk_apply (j : S3.Idx) : selOk j = 1#1 := by
  unfold selOk
  refine reduce_andi_ones _ _ _ _ (fun _ => rfl) (fun i => ?_) j
  obtain ⟨p, q, rfl⟩ : ∃ (p : Fin 3) (q : Fin 1), i = ix2 p q := ⟨i 0, i 1, eq_ix2 i⟩
  obtain rfl : q = 0 := Subsingleton.elim _ _
  show IntOp.andi (IntOp.cmpi .sge (selCol (ix2 p 0)) 0#32) (IntOp.cmpi .sle (selCol (ix2 p 0)) 6#32) = 1#1
  rw [selCol_apply]
  fin_cases p <;> decide

/-- The start index of position `p`, read signed and clamped into the seven entries, is `selRow p`. -/
theorem selRow_val (p : Fin 3) : (selRow p).val = min (selCol (ix2 p 0)).toInt.toNat (7 - 1) := by
  rw [selCol_apply]
  fin_cases p <;> decide

/-! ## The selections read at an index -/

/-- Plane `p` of the selection is plane `selRow p` of the stacked weights. -/
theorem takePlanes_apply (x : S7x512x512.Idx → Elt F .f32) (p : Fin 3) (a b : Fin 512) :
    takePlanes x (ix3 p a b) = x (ix3 (selRow p) a b) := by
  unfold takePlanes
  rw [select_apply]
  have hm : broadcastInDim S3x512x512 ![0] bcast_S3_S3x512x512_0 selOk (ix3 p a b) = 1#1 :=
    (broadcastInDim_apply _ bcast_S3_S3x512x512_0 selOk (ix3 p a b) (ix1 p) (fun e => match e with
      | ⟨0, _⟩ => by show p.val = if (3 : Nat) = 1 then 0 else p.val; rw [if_neg (by decide)])).trans (selOk_apply _)
  rw [hm, select_one]
  exact planesG_apply gather_S7x512x512_S3x1_S3x512x512_12_0_n_n_0_1_1512512_wf x selCol p a b (selRow p) (selRow_val p)

/-- Row `p` of the selection is row `selRow p` of the stacked biases. -/
theorem takeRows_apply (x : S7x512.Idx → Elt F .f32) (p : Fin 3) (b : Fin 512) :
    takeRows x (ix2 p b) = x (ix2 (selRow p) b) := by
  unfold takeRows
  rw [select_apply]
  have hm : broadcastInDim S3x512 ![0] bcast_S3_S3x512_0 selOk (ix2 p b) = 1#1 :=
    (broadcastInDim_apply _ bcast_S3_S3x512_0 selOk (ix2 p b) (ix1 p) (fun e => match e with
      | ⟨0, _⟩ => by show p.val = if (3 : Nat) = 1 then 0 else p.val; rw [if_neg (by decide)])).trans (selOk_apply _)
  rw [hm, select_one]
  exact rowsG_apply gather_S7x512_S3x1_S3x512_1_0_n_n_0_1_1512_wf x selCol p b (selRow p) (selRow_val p)

end Cert.KernelIdeal.Selected

end
-- ==== Proof.StagedArrays.lean ====
/-
  The four parameter arrays as the launch finds them: the host's selections of networks 1, 3 and 5.

  When the region is entered the host operations have run: the literal index vector, then one
  guarded selection per stacked parameter array. Read back from the list of operations, the array
  each staged window reads is the selection (`takePlanes`, `takeRows`) of the corresponding
  argument as launched; read at an index it is the argument at network `selRow j`.
-/
import proofs.«104136_j77309411328201_1_alg».proof.Proof.SelectedNets

noncomputable section

namespace Cert.KernelIdeal.Selected

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

set_option maxHeartbeats 2000000 in
/-- The first-layer weights the launch stages are the selection of the stacked first-layer weights. -/
theorem V_main_v0 (c : Dev nD) :
    (V m c main_v0 : S3x512x512.Idx → Elt F .f32) = takePlanes (m ((c : Thread nD τ).loc main_arg3)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- The first-layer biases the launch stages are the selection of the stacked first-layer biases. -/
theorem V_main_v1 (c : Dev nD) :
    (V m c main_v1 : S3x512.Idx → Elt F .f32) = takeRows (m ((c : Thread nD τ).loc main_arg4)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- The second-layer weights the launch stages are the selection of the stacked second-layer weights. -/
theorem V_main_v2 (c : Dev nD) :
    (V m c main_v2 : S3x512x512.Idx → Elt F .f32) = takePlanes (m ((c : Thread nD τ).loc main_arg5)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 2000000 in
/-- The second-layer biases the launch stages are the selection of the stacked second-layer biases. -/
theorem V_main_v3 (c : Dev nD) :
    (V m c main_v3 : S3x512.Idx → Elt F .f32) = takeRows (m ((c : Thread nD τ).loc main_arg6)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.Selected

end
-- ==== Proof.CellSpec.lean ====
/-
  The value both programs compute, as one function of the argument arrays, index by index, on the
  extended reals.

  There are seven two-layer networks of the input row `hx[b, :]`, stacked along the leading axis
  of the weight arrays: network `k` has the hidden units

      hiddenPre k b h = (Σ_d W1[k, h, d] · hx[b, d]) + b1[k, h]

  and, after the hyperbolic tangent of the hidden units, the outputs

      netOut k b g = (Σ_h tanh (hiddenPre k b h) · W2[k, g, h]) + b2[k, g].

  A gate is the logistic function of the hyperbolic tangent of a network's output. The returned
  cell state uses three of the networks only — number 3 as the forget gate of `cx2`, number 1 as the
  input gate, number 5 (under one more hyperbolic tangent) as the candidate:

      cell[b, g] = gate (netOut 3 b g) · cx2[b, g] + gate (netOut 1 b g) · tanh (gate (netOut 5 b g)).

  Every operation is the extended reals' own: sums and products as they stand, `tanh` with the
  limits `∓1` at the infinities, the logistic function `1 / (1 + e^(-x))` with the division's and
  the exponential's conventions. Nothing here needs an input to be finite: the two programs apply
  the same operations in the same order, up to the order of the two factors of a product.
-/
import Idealize.ShloMosaic.PureOps.Ideal
import Idealize.ShloMosaic.Lib.ValueIdx

noncomputable section

namespace Cert.CellSpec

open Idealize.ShloMosaic Idealize.ShloMosaic.ValueIdx
open scoped BigOperators

/-- The batch arrays `hx`, `cx2` and the result: 16384 rows of 512. -/
abbrev SRows : Shape := ⟨2, ![16384, 512]⟩
/-- The stacked weights of the seven networks' layers. -/
abbrev SWeights : Shape := ⟨3, ![7, 512, 512]⟩
/-- The stacked biases of the seven networks' layers. -/
abbrev SBias : Shape := ⟨2, ![7, 512]⟩

variable (hx cx2 : SRows.Idx → EReal) (W1 : SWeights.Idx → EReal) (b1 : SBias.Idx → EReal)
  (W2 : SWeights.Idx → EReal) (b2 : SBias.Idx → EReal)

/-- Hidden unit `h` of network `k` at batch row `b`, before its activation. -/
def hiddenPre (k : Fin 7) (b : Fin 16384) (h : Fin 512) : EReal :=
  (∑ d : Fin 512, W1 (ix3 k h d) * hx (ix2 b d)) + b1 (ix2 k h)

/-- Output `g` of network `k` at batch row `b`. -/
def netOut (k : Fin 7) (b : Fin 16384) (g : Fin 512) : EReal :=
  (∑ h : Fin 512, Ideal.tanh (hiddenPre hx W1 b1 k b h) * W2 (ix3 k g h)) + b2 (ix2 k g)

/-- A gate: the logistic function of the hyperbolic tangent. -/
def gate (x : EReal) : EReal := Ideal.logistic (Ideal.tanh x)

/-- The returned cell state at row `b`, column `g`. -/
def cellAt (b : Fin 16384) (g : Fin 512) : EReal :=
  gate (netOut hx W1 b1 W2 b2 3 b g) * cx2 (ix2 b g)
    + gate (netOut hx W1 b1 W2 b2 1 b g) * Ideal.tanh (gate (netOut hx W1 b1 W2 b2 5 b g))

/-- The returned cell state as an array. -/
def cell : SRows.Idx → EReal := fun i => cellAt hx cx2 W1 b1 W2 b2 (i 0) (i 1)

/-- The float literal `1.0` denotes the real `1`. -/
theorem ofBits_one : Ideal.ofBits .f32 0x3F800000#32 = 1 := by
  simp [Ideal.ofBits, Ideal.ieee, -EReal.coe_mul]; norm_num

/-- The logistic function spelled out with the literal `1.0` — the quotient of `1.0` by `1.0` plus
    the exponential of the negated argument — of a hyperbolic tangent is the gate. -/
theorem div_one_add_exp_neg_tanh (x : EReal) :
    Ideal.div (Ideal.ofBits .f32 0x3F800000#32) (Ideal.ofBits .f32 0x3F800000#32 + Ideal.exp (-(Ideal.tanh x))) = gate x := by
  rw [ofBits_one]; rfl

end Cert.CellSpec

end
-- ==== Proof.BlockCell.lean ====
/-
  What the kernel's body computes for one block of 1024 batch rows, index by index, on the
  extended reals.

  The body holds a block `x0` of rows of `hx`, the same rows `x1` of `cx2`, and the whole selected
  parameters: three planes `x2`, `x4` of first- and second-layer weights and three rows `x3`, `x5`
  of biases. For each of the three networks `j` it multiplies the block by plane `j` of the
  first-layer weights (both contracted along their last axes, into a zero accumulator), adds bias
  row `j` to every row, applies the hyperbolic tangent, and repeats with the second layer. At the
  ideal values the change of float format before each matrix product is the identity and the
  matrix product is a plain sum, so at row `p` and column `g`

      bHidden j p h = (Σ_d x0[p, d] · x2[j, h, d]) + x3[j, h]
      bNet j p g    = (Σ_h tanh (bHidden j p h) · x4[j, g, h]) + x5[j, g]
      bCell p g     = gate (bNet 1 p g) · x1[p, g] + gate (bNet 0 p g) · tanh (gate (bNet 2 p g)).

  When the block is rows `1024·t + p` of the batch arrays and plane (row) `j` of the selected
  parameters is plane (row) `r j` of the stacked ones, with `r = (1, 3, 5)`, this is the
  specification's cell state at row `1024·t + p`: the two differ only in the order of the two
  factors inside the first layer's sum.
-/
import proofs.«104136_j77309411328201_1_alg».proof.Proof.Gen.KernelIdeal.Skeleton
import proofs.«104136_j77309411328201_1_alg».proof.Proof.CellSpec
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx Cert.CellSpec
open scoped BigOperators

/-! ## The operations that are not pointwise, read at an index -/

theorem tanh_apply {s : Shape} {φ : FTy} (a : FVec Ideal s φ) (i : s.Idx) : tanh a i = Ideal.tanh (a i) := rfl

theorem logistic_apply {s : Shape} {φ : FTy} (a : FVec Ideal s φ) (i : s.Idx) : logistic a i = Ideal.logistic (a i) := rfl

/-- The left operand of the body's matrix product is read at the result's row; -/
theorem lhs_row (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl

/-- the right operand at the row the result's column names. -/
theorem rhs_row (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl

/-- The body's matrix product into the zero accumulator: rows of the left operand against rows of the
    right one, a plain sum over their common last axis. -/
theorem matmul_rows {φ₁ φ₂ : FTy} (A : FVec Ideal S1024x512 φ₁) (B : FVec Ideal S512x512 φ₂) (p : Fin 1024) (g : Fin 512) :
    matmul (F := Ideal) dot_S1024x512_S512x512_S1024x512_1_1_0_0_n_n none A B (constant (F := Ideal) S1024x512 .f32 0x00000000#32) (ix2 p g)
      = ∑ h : Fin 512, A (ix2 p h) * B (ix2 g h) := by
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p g) ((contrEquiv1 dot_S1024x512_S512x512_S1024x512_1_1_0_0_n_n 512 rfl rfl).symm k) = ix2 p k := funext fun a => Fin.ext (by
    match a with
    | ⟨0, _⟩ => exact lhs_row _ _
    | ⟨1, _⟩ => exact (dot_S1024x512_S512x512_S1024x512_1_1_0_0_n_n.lhsIdx_val_of_single rfl _ _).trans hk)
  have er : dot_S1024x512_S512x512_S1024x512_1_1_0_0_n_n.rhsIdx (ix2 p g) ((contrEquiv1 dot_S1024x512_S512x512_S1024x512_1_1_0_0_n_n 512 rfl rfl).symm k) = ix2 g k := funext fun a => Fin.ext (by
    match a with
    | ⟨0, _⟩ => exact rhs_row _ _
    | ⟨1, _⟩ => exact (dot_S1024x512_S512x512_S1024x512_1_1_0_0_n_n.rhsIdx_val_of_single rfl _ _).trans hk)
  rw [el, er]

/-- Plane `j` of a stack of three, cut out at offset `o = j` and read as a matrix. -/
theorem plane_apply {φ : FTy} (o : Nat) (j : Fin 3) (ho : o = j.val) (w : FVec Ideal S3x512x512 φ)
    (hs : S3x512x512.Slices ![o, 0, 0] S1x512x512) (g h : Fin 512) :
    shapeCast S512x512 (extractStridedSlice S1x512x512 ![o, 0, 0] w hs) shapeCasts_S1x512x512_S512x512 (ix2 g h) = w (ix3 j g h) := by
  refine (shapeCast_apply _ shapeCasts_S1x512x512_S512x512 (ix2 g h) (ix3 (0 : Fin 1) g h) ?_).trans ?_
  · rewrite [Shape.rowMajor_val_three, Shape.rowMajor_val_two]
    show (0 * 512 + g.val) * 512 + h.val = g.val * 512 + h.val
    omega
  · exact extractStridedSlice_apply ![o, 0, 0] w hs (ix3 (0 : Fin 1) g h) (ix3 j g h) (fun a => match a with
      | ⟨0, _⟩ => by show j.val = o + 0; omega
      | ⟨1, _⟩ => by show g.val = 0 + g.val; omega
      | ⟨2, _⟩ => by show h.val = 0 + h.val; omega)

/-- Row `j` of a stack of three bias rows, cut out at offset `o = j` and repeated over the block's rows. -/
theorem biasRow_apply (o : Nat) (j : Fin 3) (ho : o = j.val) (bias : FVec Ideal S3x512 .f32)
    (hs : S3x512.Slices ![o, 0] S1x512) (p : Fin 1024) (g : Fin 512) :
    broadcastTo S1024x512 (shapeCast S1x512 (shapeCast S512 (extractStridedSlice S1x512 ![o, 0] bias hs) shapeCasts_S1x512_S512) shapeCasts_S512_S1x512)
      broadcasts_S1x512_S1024x512 (ix2 p g) = bias (ix2 j g) := by
  refine (broadcastTo_apply _ broadcasts_S1x512_S1024x512 (ix2 p g) (ix2 (0 : Fin 1) g) (fun a => match a with
    | ⟨0, _⟩ => by show (0 : Nat) = if (1 : Nat) = 1 then 0 else p.val; rw [if_pos rfl]
    | ⟨1, _⟩ => by show g.val = if (512 : Nat) = 1 then 0 else g.val; rw [if_neg (by decide)])).trans ?_
  refine (shapeCast_apply _ shapeCasts_S512_S1x512 (ix2 (0 : Fin 1) g) (ix1 g) ?_).trans ?_
  · rewrite [Shape.rowMajor_val_one, Shape.rowMajor_val_two]
    show g.val = 0 * 512 + g.val
    omega
  refine (shapeCast_apply _ shapeCasts_S1x512_S512 (ix1 g) (ix2 (0 : Fin 1) g) ?_).trans ?_
  · rewrite [Shape.rowMajor_val_two, Shape.rowMajor_val_one]
    show 0 * 512 + g.val = g.val
    omega
  exact extractStridedSlice_apply ![o, 0] bias hs (ix2 (0 : Fin 1) g) (ix2 j g) (fun a => match a with
    | ⟨0, _⟩ => by show j.val = o + 0; omega
    | ⟨1, _⟩ => by show g.val = 0 + g.val; omega)

/-! ## One block's cell state -/

section BlockValue

variable (x0 x1 : S1024x512.Idx → EReal) (x2 : S3x512x512.Idx → EReal) (x3 : S3x512.Idx → EReal)
  (x4 : S3x512x512.Idx → EReal) (x5 : S3x512.Idx → EReal)

/-- Hidden unit `h` of the block's network `j` at the block's row `p`. -/
def bHidden (j : Fin 3) (p : Fin 1024) (h : Fin 512) : EReal :=
  (∑ d : Fin 512, x0 (ix2 p d) * x2 (ix3 j h d)) + x3 (ix2 j h)

/-- Output `g` of the block's network `j` at the block's row `p`. -/
def bNet (j : Fin 3) (p : Fin 1024) (g : Fin 512) : EReal :=
  (∑ h : Fin 512, Ideal.tanh (bHidden x0 x2 x3 j p h) * x4 (ix3 j g h)) + x5 (ix2 j g)

/-- The block's cell state at its row `p`, column `g`. -/
def bCell (p : Fin 1024) (g : Fin 512) : EReal :=
  gate (bNet x0 x2 x3 x4 x5 1 p g) * x1 (ix2 p g)
    + gate (bNet x0 x2 x3 x4 x5 0 p g) * Ideal.tanh (gate (bNet x0 x2 x3 x4 x5 2 p g))

/-- THE BODY'S ONE STORE, read at `(p, g)`, is the block's cell state there. -/
theorem pay_apply (p : Fin 1024) (g : Fin 512) :
    k0_pay1 (F := Ideal) (k0_pay2 x0) x1 (k0_pay3 x2) (k0_pay4 x3) (k0_pay5 x4) (k0_pay6 x5) (k0_pay7 x0 x2 x3 x4 x5) (k0_pay8 x0 x2 x3) (ix2 p g)
      = bCell x0 x1 x2 x3 x4 x5 p g := by
  unfold k0_pay1 k0_pay7 k0_pay8 k0_pay2 k0_pay3 k0_pay4 k0_pay5 k0_pay6
  simp only [addf_apply, mulf_apply, tanh_apply, logistic_apply, truncf_apply, matmul_rows, shapeCast_self,
    plane_apply 0 0 rfl, plane_apply 1 1 rfl, plane_apply 2 2 rfl,
    biasRow_apply 0 0 rfl, biasRow_apply 1 1 rfl, biasRow_apply 2 2 rfl]
  rfl

end BlockValue

/-! ## The block's cell state is the specification's, at the block's rows -/

section AgainstSpec

variable (hx cx2 : SRows.Idx → EReal) (W1 : SWeights.Idx → EReal) (b1 : SBias.Idx → EReal)
  (W2 : SWeights.Idx → EReal) (b2 : SBias.Idx → EReal)
variable (x0 x1 : S1024x512.Idx → EReal) (x2 : S3x512x512.Idx → EReal) (x3 : S3x512.Idx → EReal)
  (x4 : S3x512x512.Idx → EReal) (x5 : S3x512.Idx → EReal)
variable (r : Fin 3 → Fin 7) (row : Fin 1024 → Fin 16384)
variable (h0 : ∀ p d, x0 (ix2 p d) = hx (ix2 (row p) d)) (h1 : ∀ p g, x1 (ix2 p g) = cx2 (ix2 (row p) g))
  (h2 : ∀ j a b, x2 (ix3 j a b) = W1 (ix3 (r j) a b)) (h3 : ∀ j a, x3 (ix2 j a) = b1 (ix2 (r j) a))
  (h4 : ∀ j a b, x4 (ix3 j a b) = W2 (ix3 (r j) a b)) (h5 : ∀ j a, x5 (ix2 j a) = b2 (ix2 (r j) a))

include h0 h2 h3 in
theorem bHidden_eq (j : Fin 3) (p : Fin 1024) (h : Fin 512) :
    bHidden x0 x2 x3 j p h = hiddenPre hx W1 b1 (r j) (row p) h := by
  unfold bHidden hiddenPre
  rw [h3]
  congr 1
  exact Finset.sum_congr rfl fun d _ => by rw [h0, h2, mul_comm]

include h0 h2 h3 h4 h5 in
theorem bNet_eq (j : Fin 3) (p : Fin 1024) (g : Fin 512) :
    bNet x0 x2 x3 x4 x5 j p g = netOut hx W1 b1 W2 b2 (r j) (row p) g := by
  unfold bNet netOut
  rw [h5]
  congr 1
  exact Finset.sum_congr rfl fun h _ => by rw [bHidden_eq hx W1 b1 x0 x2 x3 r row h0 h2 h3, h4]

include h0 h1 h2 h3 h4 h5 in
/-- With the block's rows at `row p` of the batch arrays and the selected parameters those of networks
    `r = (1, 3, 5)`, the block's cell state is the specification's at row `row p`. -/
theorem bCell_eq (hr0 : r 0 = 1) (hr1 : r 1 = 3) (hr2 : r 2 = 5) (p : Fin 1024) (g : Fin 512) :
    bCell x0 x1 x2 x3 x4 x5 p g = cellAt hx cx2 W1 b1 W2 b2 (row p) g := by
  unfold bCell cellAt
  rw [bNet_eq hx W1 b1 W2 b2 x0 x2 x3 x4 x5 r row h0 h2 h3 h4 h5 1,
    bNet_eq hx W1 b1 W2 b2 x0 x2 x3 x4 x5 r row h0 h2 h3 h4 h5 0,
    bNet_eq hx W1 b1 W2 b2 x0 x2 x3 x4 x5 r row h0 h2 h3 h4 h5 2, h1, hr0, hr1, hr2]

end AgainstSpec

end Cert.KernelIdeal.Block

end
-- ==== Proof.RowsCover.lean ====
/-
  The kernel's result array after the run is the specification's cell state of the arguments.

  The grid has sixteen points. Point `t` stages rows `1024·t … 1024·t + 1023` of `hx` and of `cx2`,
  the whole of the four selected parameter arrays (their block index is zero on every axis), and
  writes back rows `1024·t … 1024·t + 1023` of the result. The body's store at the block's row `p`
  is the block's cell state, which is the specification's at row `1024·t + p`: so what point `t`
  writes back is block `t` of the specification's array. Row `r` of the result lies in the block
  of point `r / 1024`, so the sixteen blocks cover the array, and the array ends holding the
  specification's cell state everywhere.
-/
import proofs.«104136_j77309411328201_1_alg».proof.Proof.Gen.KernelIdeal.Value
import proofs.«104136_j77309411328201_1_alg».proof.Proof.StagedArrays
import proofs.«104136_j77309411328201_1_alg».proof.Proof.BlockCell
import Idealize.ShloMosaic.Lib.Pipeline.Value

noncomputable section

namespace Cert.KernelIdeal.Rows

open Cert.KernelIdeal Cert.KernelIdeal.Gen Cert.KernelIdeal.Value Cert.KernelIdeal.Selected Cert.KernelIdeal.Block
open Idealize.ShloMosaic Idealize.ShloMosaic.TcCoe Idealize.SL.Sem Idealize.ShloMosaic.ValueIdx Cert.CellSpec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The specification's cell state of the argument arrays as launched. -/
abbrev result (c : Dev nD) : S16384x512.Idx → EReal :=
  cell (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- Row `p` of point `t`'s block is row `1024·t + p` of the batch arrays. -/
def rowOf (t : Fin cfg0.N) (p : Fin 1024) : Fin 16384 :=
  ⟨t.val * 1024 + p.val, by have h : t.val < 16 := Nat.lt_of_lt_of_eq t.isLt (N_0 : cfg0.N = 16); have := p.isLt; omega⟩

/-- The printed index maps, decided over the sixteen points: the batch windows and the result's window
    are at block `t` of the rows and block zero of the columns, the parameter windows at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks at a point -/

theorem iblk0_apply (c : Dev nD) (t : Fin cfg0.N) (p : Fin 1024) (d : Fin 512) :
    (iblk m c 0 t : S1024x512.Idx → EReal) (ix2 p d) = (m ((c : Thread nD τ).loc main_arg0)) (ix2 (rowOf t p) d) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 512 + 1 * d.val = d.val; rw [e1]; omega

theorem iblk1_apply (c : Dev nD) (t : Fin cfg0.N) (p : Fin 1024) (g : Fin 512) :
    (iblk m c 1 t : S1024x512.Idx → EReal) (ix2 p g) = (m ((c : Thread nD τ).loc main_arg2)) (ix2 (rowOf t p) g) := by
  obtain ⟨-, -, e0, e1, -⟩ := idx_facts t
  unfold iblk
  rw [View.read_apply]
  show V m c main_arg2 _ = _
  rw [V_main_arg2]
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 512 + 1 * g.val = g.val; rw [e1]; omega

theorem iblk2_apply (c : Dev nD) (t : Fin cfg0.N) (j : Fin 3) (a b : Fin 512) :
    (iblk m c 2 t : S3x512x512.Idx → EReal) (ix3 j a b) = (m ((c : Thread nD τ).loc main_arg3)) (ix3 (selRow j) a b) := by
  obtain ⟨-, -, -, -, e0, e1, e2, -⟩ := idx_facts t
  unfold iblk
  rw [View.read_apply]
  show (V m c main_v0 : S3x512x512.Idx → EReal) _ = _
  rw [V_main_v0]
  refine Eq.trans ?_ (takePlanes_apply (m ((c : Thread nD τ).loc main_arg3)) j a b)
  congr 1
  funext e
  apply Fin.ext
  match e with
  | ⟨0, _⟩ => show win0_2.index t (0 : Fin 3) * 3 + 1 * j.val = j.val; rw [e0]; omega
  | ⟨1, _⟩ => show win0_2.index t (1 : Fin 3) * 512 + 1 * a.val = a.val; rw [e1]; omega
  | ⟨2, _⟩ => show win0_2.index t (2 : Fin 3) * 512 + 1 * b.val = b.val; rw [e2]; omega

theorem iblk3_apply (c : Dev nD) (t : Fin cfg0.N) (j : Fin 3) (a : Fin 512) :
    (iblk m c 3 t : S3x512.Idx → EReal) (ix2 j a) = (m ((c : Thread nD τ).loc main_arg4)) (ix2 (selRow j) a) := by
  obtain ⟨-, -, -, -, -, -, -, e0, e1, -⟩ := idx_facts t
  unfold iblk
  rw [View.read_apply]
  show (V m c main_v1 : S3x512.Idx → EReal) _ = _
  rw [V_main_v1]
  refine Eq.trans ?_ (takeRows_apply (m ((c : Thread nD τ).loc main_arg4)) j a)
  congr 1
  funext e
  apply Fin.ext
  match e with
  | ⟨0, _⟩ => show win0_3.index t (0 : Fin 2) * 3 + 1 * j.val = j.val; rw [e0]; omega
  | ⟨1, _⟩ => show win0_3.index t (1 : Fin 2) * 512 + 1 * a.val = a.val; rw [e1]; omega

theorem iblk4_apply (c : Dev nD) (t : Fin cfg0.N) (j : Fin 3) (a b : Fin 512) :
    (iblk m c 4 t : S3x512x512.Idx → EReal) (ix3 j a b) = (m ((c : Thread nD τ).loc main_arg5)) (ix3 (selRow j) a b) := by
  obtain ⟨-, -, -, -, -, -, -, -, -, e0, e1, e2, -⟩ := idx_facts t
  unfold iblk
  rw [View.read_apply]
  show (V m c main_v2 : S3x512x512.Idx → EReal) _ = _
  rw [V_main_v2]
  refine Eq.trans ?_ (takePlanes_apply (m ((c : Thread nD τ).loc main_arg5)) j a b)
  congr 1
  funext e
  apply Fin.ext
  match e with
  | ⟨0, _⟩ => show win0_4.index t (0 : Fin 3) * 3 + 1 * j.val = j.val; rw [e0]; omega
  | ⟨1, _⟩ => show win0_4.index t (1 : Fin 3) * 512 + 1 * a.val = a.val; rw [e1]; omega
  | ⟨2, _⟩ => show win0_4.index t (2 : Fin 3) * 512 + 1 * b.val = b.val; rw [e2]; omega

theorem iblk5_apply (c : Dev nD) (t : Fin cfg0.N) (j : Fin 3) (a : Fin 512) :
    (iblk m c 5 t : S3x512.Idx → EReal) (ix2 j a) = (m ((c : Thread nD τ).loc main_arg6)) (ix2 (selRow j) a) := by
  obtain ⟨-, -, -, -, -, -, -, -, -, -, -, -, e0, e1, -⟩ := idx_facts t
  unfold iblk
  rw [View.read_apply]
  show (V m c main_v3 : S3x512.Idx → EReal) _ = _
  rw [V_main_v3]
  refine Eq.trans ?_ (takeRows_apply (m ((c : Thread nD τ).loc main_arg6)) j a)
  congr 1
  funext e
  apply Fin.ext
  match e with
  | ⟨0, _⟩ => show win0_5.index t (0 : Fin 2) * 3 + 1 * j.val = j.val; rw [e0]; omega
  | ⟨1, _⟩ => show win0_5.index t (1 : Fin 2) * 512 + 1 * a.val = a.val; rw [e1]; omega

/-! ## What a point writes back -/

/-- The body's store over blocks that are rows `row p` of the batch arrays and networks `r = (1, 3, 5)`
    of the stacked parameters, read at a block index `y`, is the specification's cell state at the array
    index `i` with row `row (y 0)` and column `y 1`. -/
theorem store_apply (hx cx2 : SRows.Idx → EReal) (W1 : SWeights.Idx → EReal) (b1 : SBias.Idx → EReal)
    (W2 : SWeights.Idx → EReal) (b2 : SBias.Idx → EReal)
    (x0 x1 : S1024x512.Idx → EReal) (x2 : S3x512x512.Idx → EReal) (x3 : S3x512.Idx → EReal)
    (x4 : S3x512x512.Idx → EReal) (x5 : S3x512.Idx → EReal) (row : Fin 1024 → Fin 16384)
    (h0 : ∀ p d, x0 (ix2 p d) = hx (ix2 (row p) d)) (h1 : ∀ p g, x1 (ix2 p g) = cx2 (ix2 (row p) g))
    (h2 : ∀ j a b, x2 (ix3 j a b) = W1 (ix3 (selRow j) a b)) (h3 : ∀ j a, x3 (ix2 j a) = b1 (ix2 (selRow j) a))
    (h4 : ∀ j a b, x4 (ix3 j a b) = W2 (ix3 (selRow j) a b)) (h5 : ∀ j a, x5 (ix2 j a) = b2 (ix2 (selRow j) a))
    (y : S1024x512.Idx) (i : S16384x512.Idx) (hi0 : i 0 = row (y 0)) (hi1 : i 1 = y 1) :
    k0_pay1 (F := Ideal) (k0_pay2 x0) x1 (k0_pay3 x2) (k0_pay4 x3) (k0_pay5 x4) (k0_pay6 x5) (k0_pay7 x0 x2 x3 x4 x5) (k0_pay8 x0 x2 x3) y
      = cell hx cx2 W1 b1 W2 b2 i := by
  obtain ⟨p, g, rfl⟩ : ∃ (p : Fin 1024) (g : Fin 512), y = ix2 p g := ⟨y 0, y 1, eq_ix2 y⟩
  rw [pay_apply, bCell_eq hx cx2 W1 b1 W2 b2 x0 x1 x2 x3 x4 x5 selRow row h0 h1 h2 h3 h4 h5 rfl rfl rfl]
  unfold cell
  rw [hi0, hi1]

/-- WHAT POINT `t` WRITES BACK is block `t` of the specification's cell state of the arguments. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2]
  simp only [View.ld_unit_zero (S := S1024x512) hz2, View.ld_unit_zero (S := S3x512x512) hz3, View.ld_unit_zero (S := S3x512) hz2]
  obtain ⟨-, -, -, -, -, -, -, -, -, -, -, -, -, -, e0, e1⟩ := idx_facts t
  funext y
  show k0_pay1 (F := Ideal) (k0_pay2 (iblk m c 0 t)) (iblk m c 1 t) (k0_pay3 (iblk m c 2 t)) (k0_pay4 (iblk m c 3 t)) (k0_pay5 (iblk m c 4 t))
      (k0_pay6 (iblk m c 5 t)) (k0_pay7 (iblk m c 0 t) (iblk m c 2 t) (iblk m c 3 t) (iblk m c 4 t) (iblk m c 5 t))
      (k0_pay8 (iblk m c 0 t) (iblk m c 2 t) (iblk m c 3 t)) y
    = result m c (((cfg0.win 6).blk t).view.emb y)
  refine store_apply (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (rowOf t)
    (iblk0_apply m c t) (iblk1_apply m c t) (iblk2_apply m c t) (iblk3_apply m c t) (iblk4_apply m c t) (iblk5_apply m c t)
    y (((cfg0.win 6).blk t).view.emb y) ?_ ?_
  · apply Fin.ext
    show win0_6.index t (0 : Fin 2) * 1024 + 1 * (y 0).val = t.val * 1024 + (y 0).val
    rw [e0]; omega
  · apply Fin.ext
    show win0_6.index t (1 : Fin 2) * 512 + 1 * (y 1).val = (y 1).val
    rw [e1]; omega

/-! ## The blocks cover the array -/

/-- An index of the result is in point `t`'s block iff each coordinate is in the block's range on its axis. -/
theorem mem_blk (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v4).slice (win0_6.rect t)).set ↔ _
  rw [View.set_slice_whole, Rect.mem_set_unit]
  exact Iff.rfl

/-- Row `r` of the result is in the block of point `r / 1024`. -/
theorem cover (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  have hN : cfg0.N = 16 := N_0
  have ht : (i 0).val / 1024 < cfg0.N := by rw [hN]; omega
  obtain ⟨-, -, -, -, -, -, -, -, -, -, -, -, -, -, e0, e1⟩ := idx_facts ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_6.index ⟨(i 0).val / 1024, ht⟩ (1 : Fin 2) * 512 ≤ (i 1).val ∧ (i 1).val < win0_6.index ⟨(i 0).val / 1024, ht⟩ (1 : Fin 2) * 512 + 512
    rw [e1]
    omega

/-- THE RESULT ARRAY after the run is the specification's cell state of the arguments. -/
theorem final (c : Dev nD) : (dats m 0 c).arrAt 6 cfg0.N = result m c :=
  (dats m 0 c).arrAt_eq_of_cover 6 (result m c) (fun t _ => flushed_eq m c t) cover

/-- The run, read: the result array at the specification's cell state, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Rows

end
-- ==== Proof.RefCell.lean ====
/-
  The reference's result, read one stage at a time, is the specification's cell state.

  The reference computes all seven networks at once: one batched contraction of the stacked
  first-layer weights against `hx` (transposed to networks × rows × units), the bias added along
  the rows, the hyperbolic tangent on networks 0 … 5 and another activation on network 6, the
  two joined again along the network axis, the second layer as one contraction batched over the
  networks, and the gate — the quotient of `1.0` by `1.0` plus the exponential of the negated
  hyperbolic tangent — on networks 0 … 5. Gates 3, 1 and 5 are then cut out and combined with
  `cx2`. Read at an index, every stage depends on one network only, so the network-6 branch never
  meets the result: a network `k < 6` reads the first piece of the joined array.
-/
import proofs.«104136_j77309411328201_1_alg».proof.Proof.Gen.ReferenceIdeal.Read
import proofs.«104136_j77309411328201_1_alg».proof.Proof.CellSpec

noncomputable section

namespace Cert.ReferenceIdeal.RefValue

open Cert.ReferenceIdeal Cert.ReferenceIdeal.Gen Cert.ReferenceIdeal.Read Idealize.ShloMosaic Idealize.ShloMosaic.ValueIdx
open Cert.CellSpec
open scoped BigOperators

variable (x0 x2 : S16384x512.Idx → EReal) (x3 : S7x512x512.Idx → EReal) (x4 : S7x512.Idx → EReal)
  (x5 : S7x512x512.Idx → EReal) (x6 : S7x512.Idx → EReal)

/-- The first layer of network `k` at row `b`, unit `h`: the contraction over `hx`'s columns, plus the bias. -/
theorem hidden_apply (k : Fin 7) (b : Fin 16384) (h : Fin 512) :
    val_main_v4 (F := Ideal) x0 x3 x4 (ix3 k b h) = hiddenPre x0 x3 x4 k b h := by
  rw [val_main_v4_apply, val_main_v1_apply, val_main_v0_apply, val_main_v3_apply, val_main_v2_apply]
  have e1 : ∀ d : Fin 512, lidx_main_v0 (idx_main_v1 (ix3 k b h)) d = ix3 k h d := fun d => funext fun a => Fin.ext (by
    match a with
    | ⟨0, _⟩ => rfl
    | ⟨1, _⟩ => rfl
    | ⟨2, _⟩ => rfl)
  have e2 : ∀ d : Fin 512, ridx_main_v0 (idx_main_v1 (ix3 k b h)) d = ix2 b d := fun d => funext fun a => Fin.ext (by
    match a with
    | ⟨0, _⟩ => rfl
    | ⟨1, _⟩ => rfl)
  have e3 : idx_main_v2 (idx_main_v3 (ix3 k b h)) = ix2 k h := funext fun a => Fin.ext (by
    match a with
    | ⟨0, _⟩ => rfl
    | ⟨1, _⟩ => rfl)
  simp only [e1, e2, e3]
  rfl

/-- A network `k < 6` of the joined activations is the hyperbolic tangent of its first layer. -/
theorem activation_apply (k : Fin 7) (hk : k.val < 6) (b : Fin 16384) (h : Fin 512) :
    val_main_v9 (F := Ideal) x0 x3 x4 (ix3 k b h) = Ideal.tanh (hiddenPre x0 x3 x4 k b h) := by
  unfold val_main_v9
  refine (concatenate_pair_apply_left 0 _ _ concatenates_S6x16384x512_S1x16384x512_S7x16384x512_d0 (ix3 k b h) rfl
    (ix3 (⟨k.val, hk⟩ : Fin 6) b h) (fun e => match e with
      | ⟨0, _⟩ => rfl
      | ⟨1, _⟩ => rfl
      | ⟨2, _⟩ => rfl)).trans ?_
  rw [val_main_v6_apply, val_main_v5_apply]
  have e : idx_main_v5 (ix3 (⟨k.val, hk⟩ : Fin 6) b h) = ix3 k b h := funext fun a => Fin.ext (by
    match a with
    | ⟨0, _⟩ => rfl
    | ⟨1, _⟩ => rfl
    | ⟨2, _⟩ => rfl)
  rw [e, hidden_apply]
  rfl

/-- The second layer of a network `k < 6` at row `b`, output `g`. -/
theorem netOut_apply (k : Fin 7) (hk : k.val < 6) (b : Fin 16384) (g : Fin 512) :
    val_main_v13 (F := Ideal) x0 x3 x4 x5 x6 (ix3 k b g) = netOut x0 x3 x4 x5 x6 k b g := by
  rw [val_main_v13_apply, val_main_v10_apply, val_main_v12_apply, val_main_v11_apply]
  have e1 : ∀ h : Fin 512, lidx_main_v10 (ix3 k b g) h = ix3 k b h := fun h => funext fun a => Fin.ext (by
    match a with
    | ⟨0, _⟩ => rfl
    | ⟨1, _⟩ => rfl
    | ⟨2, _⟩ => rfl)
  have e2 : ∀ h : Fin 512, ridx_main_v10 (ix3 k b g) h = ix3 k g h := fun h => funext fun a => Fin.ext (by
    match a with
    | ⟨0, _⟩ => rfl
    | ⟨1, _⟩ => rfl
    | ⟨2, _⟩ => rfl)
  have e3 : idx_main_v11 (idx_main_v12 (ix3 k b g)) = ix2 k g := funext fun a => Fin.ext (by
    match a with
    | ⟨0, _⟩ => rfl
    | ⟨1, _⟩ => rfl)
  simp only [e1, e2, e3, activation_apply x0 x3 x4 k hk]
  rfl

/-- The gate of network `k` (one of the six gate networks) at row `b`, output `g`. -/
theorem gate_apply (k : Fin 6) (b : Fin 16384) (g : Fin 512) :
    val_main_v21 (F := Ideal) x0 x3 x4 x5 x6 (ix3 k b g)
      = gate (netOut x0 x3 x4 x5 x6 ⟨k.val, Nat.lt_succ_of_lt k.isLt⟩ b g) := by
  rw [val_main_v21_apply, val_main_v20_apply, val_main_cst_0_apply, val_main_v19_apply, val_main_v18_apply, val_main_cst_apply,
    val_main_v17_apply, val_main_v16_apply, val_main_v15_apply, val_main_v14_apply]
  have e : idx_main_v14 (ix3 k b g) = ix3 (⟨k.val, Nat.lt_succ_of_lt k.isLt⟩ : Fin 7) b g := funext fun a => Fin.ext (by
    match a with
    | ⟨0, _⟩ => rfl
    | ⟨1, _⟩ => rfl
    | ⟨2, _⟩ => rfl)
  rw [e, netOut_apply x0 x3 x4 x5 x6 _ k.isLt]
  exact div_one_add_exp_neg_tanh _

/-- Gate `n`, cut out of the six and read as a rows × columns array, at `(b, g)`. -/
theorem slice_index (n : Nat) (hn : n < 6) (b : Fin 16384) (g : Fin 512) (j : S6x16384x512.Idx)
    (h0 : (j 0).val = n + 0) (h1 : (j 1).val = (b.val * 512 + g.val) / 512 % 16384) (h2 : (j 2).val = (b.val * 512 + g.val) % 512) :
    j = ix3 (⟨n, hn⟩ : Fin 6) b g := funext fun a => Fin.ext (by
  have hb := b.isLt
  have hg := g.isLt
  match a with
  | ⟨0, _⟩ => show (j 0).val = n; omega
  | ⟨1, _⟩ => show (j 1).val = b.val; omega
  | ⟨2, _⟩ => show (j 2).val = g.val; omega)

/-- THE REFERENCE'S RESULT is the specification's cell state. -/
theorem result_eq : val_main_v43 (F := Ideal) x0 x2 x3 x4 x5 x6 = cell x0 x2 x3 x4 x5 x6 := by
  funext i
  obtain ⟨b, g, rfl⟩ : ∃ (b : Fin 16384) (g : Fin 512), i = ix2 b g := ⟨i 0, i 1, eq_ix2 i⟩
  rw [val_main_v43_apply, val_main_v41_apply, val_main_v42_apply, val_main_v32_apply, val_main_v31_apply, val_main_v28_apply,
    val_main_v27_apply, val_main_v37_apply, val_main_v36_apply, val_main_v35_apply,
    slice_index 3 (by decide) b g (idx_main_v31 (idx_main_v32 (ix2 b g))) rfl rfl rfl,
    slice_index 1 (by decide) b g (idx_main_v27 (idx_main_v28 (ix2 b g))) rfl rfl rfl,
    slice_index 5 (by decide) b g (idx_main_v35 (idx_main_v36 (ix2 b g))) rfl rfl rfl,
    gate_apply, gate_apply, gate_apply]
  rfl

end Cert.ReferenceIdeal.RefValue

end
-- ==== Proof.lean ====
/-
  A gated recurrent cell's second cell state, computed by a kernel over blocks of 1024 batch rows
  from three selected two-layer networks, against the same state computed by a reference that
  evaluates all seven stacked networks at once: equal on the extended reals, element by element.

  Both programs compute, at batch row `b` and column `g`,

      gate (netOut 3 b g) · cx2[b, g] + gate (netOut 1 b g) · tanh (gate (netOut 5 b g)),

  where `netOut k` is network `k`'s second layer over the hyperbolic tangent of its first layer and
  `gate` is the logistic function of the hyperbolic tangent (Proof/CellSpec.lean). On the kernel's
  side the host first selects networks 1, 3 and 5 out of the stacked parameters by guarded indexed
  reads at literal indices, which are in range (Proof/SelectedNets.lean, Proof/StagedArrays.lean);
  the body then evaluates the three networks on a block of rows, its changes of float format the
  identity and its matrix products plain sums (Proof/BlockCell.lean); the sixteen blocks written
  back cover the result (Proof/RowsCover.lean). On the reference's side each stage read at an
  index depends on one network, so the seventh network's branch never meets the result, and the
  reference's spelled-out logistic function is the kernel's (Proof/RefCell.lean). The two sides
  differ only in the order of the two factors of the first layer's products: no law that needs a
  finite operand is used, and the precondition is not opened.

  The three frames are the generated ones (the reference's is its generated run with the result
  dropped); the idealization rewrote no operation, so that claim is trivial.
-/
import proofs.«104136_j77309411328201_1_alg».proof.Defs
import proofs.«104136_j77309411328201_1_alg».proof.Proof.Gen.Kernel
import proofs.«104136_j77309411328201_1_alg».proof.Proof.Gen.Kernel.Skeleton
import proofs.«104136_j77309411328201_1_alg».proof.Proof.Gen.Kernel.Launch
import proofs.«104136_j77309411328201_1_alg».proof.Proof.Gen.Kernel.Points
import proofs.«104136_j77309411328201_1_alg».proof.Proof.Gen.Kernel.Frame
import proofs.«104136_j77309411328201_1_alg».proof.Proof.Gen.KernelIdeal
import proofs.«104136_j77309411328201_1_alg».proof.Proof.Gen.KernelIdeal.Skeleton
import proofs.«104136_j77309411328201_1_alg».proof.Proof.Gen.KernelIdeal.Launch
import proofs.«104136_j77309411328201_1_alg».proof.Proof.Gen.KernelIdeal.Points
import proofs.«104136_j77309411328201_1_alg».proof.Proof.Gen.KernelIdeal.Frame
import proofs.«104136_j77309411328201_1_alg».proof.Proof.Gen.ReferenceIdeal
import proofs.«104136_j77309411328201_1_alg».proof.Proof.Gen.Pre_finite_inputs
import proofs.«104136_j77309411328201_1_alg».proof.Proof.Gen.KernelIdeal.Value
import proofs.«104136_j77309411328201_1_alg».proof.Proof.Gen.ReferenceIdeal.Run
import proofs.«104136_j77309411328201_1_alg».proof.Proof.Gen.ReferenceIdeal.Read
import proofs.«104136_j77309411328201_1_alg».proof.Proof.RowsCover
import proofs.«104136_j77309411328201_1_alg».proof.Proof.RefCell
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the idealized kernel's result array ends at the
    specification's cell state of its arguments, and the idealized reference's at the same function of
    its own: equal, element by element. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq]
  obtain ⟨h0, -, h2, h3, h4, h5, h6⟩ := hagree c
  rw [h0, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
